-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : IVec S11008x4096 32) (main_arg2 : FVec F S11008x32 .f32) (main_arg3 : FVec F S11008x32 .f32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008x32 .f32 := Host.absf main_arg3
  let main_cst_2 : FVec F S_ .f32 := constant S_ .f32 0x7F800000#32
  let main_v10 : FVec F S11008x32 .f32 := broadcastInDim S11008x32 ![] bcast_S_S11008x32 main_cst_2
  let main_v11 : IVec S11008x32 1 := cmpf .olt main_v9 main_v10
  let main_c_3 : IVec S_ 1 := constantI S_ 1 1#1
  let main_v12 : IVec S_ 1 := (fun x v => Host.reduce IntOp.andi x v reducesTo_S11008x32_S_d0_1 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S11008x4096 : Shape := ⟨2, ![11008, 4096]⟩
abbrev S11008x32 : Shape := ⟨2, ![11008, 32]⟩
abbrev S11008 : Shape := ⟨1, ![11008]⟩
abbrev S1x11008 : Shape := ⟨2, ![1, 11008]⟩
abbrev S4096x11008 : Shape := ⟨2, ![4096, 11008]⟩
abbrev S256x4096 : Shape := ⟨2, ![256, 4096]⟩
abbrev S256x32 : Shape := ⟨2, ![256, 32]⟩
abbrev S1x256 : Shape := ⟨2, ![1, 256]⟩
abbrev S256x256 : Shape := ⟨2, ![256, 256]⟩
abbrev S256x32x128 : Shape := ⟨3, ![256, 32, 128]⟩
abbrev S256x32x1 : Shape := ⟨3, ![256, 32, 1]⟩

abbrev nBuf : Space → Nat
  | .hbm => 7
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S1x11008, .f32⟩
  | .hbm, ⟨6, _⟩ => ⟨S4096x11008, .f32⟩
  | .local _ .vmem, ⟨0, _⟩ => ⟨S256x4096, .f32⟩
  | .local _ .vmem, ⟨1, _⟩ => ⟨S256x4096, .f32⟩
  | .local _ .vmem, ⟨2, _⟩ => ⟨S256x4096, .i32⟩
  | .local _ .vmem, ⟨3, _⟩ => ⟨S256x4096, .i32⟩
  | .local _ .vmem, ⟨4, _⟩ => ⟨S256x32, .f32⟩
  | .local _ .vmem, ⟨5, _⟩ => ⟨S256x32, .f32⟩
  | .local _ .vmem, ⟨6, _⟩ => ⟨S256x32, .f32⟩
  | .local _ .vmem, ⟨7, _⟩ => ⟨S256x32, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S11008x32.size a
  hwx0_3 : ∀ i : grid0.Coords, EltTy.bits .f32 = 32 ∨ (Rect.block (s := S11008x32) S256x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x11008.size a
  hwx0_4 : ∀ i : grid0.Coords, EltTy.bits .f32 = 32 ∨ (Rect.block (s := S1x11008) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S4096x11008.size a
  hwx0_5 : ∀ i : grid0.Coords, EltTy.bits .f32 = 32 ∨ (Rect.block (s := S4096x11008) S256x256.size (cc0_transform_5 i) (hinb0_5 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x32 : Shape := ⟨2, ![11008, 32]⟩
abbrev S11008 : Shape := ⟨1, ![11008]⟩
abbrev S11008x32x128 : Shape := ⟨3, ![11008, 32, 128]⟩
abbrev S4096x11008 : Shape := ⟨2, ![4096, 11008]⟩
abbrev S1x11008 : Shape := ⟨2, ![1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x32, .f32⟩
  | .hbm, ⟨3, _⟩ => ⟨S11008x32, .f32⟩
  | .hbm, ⟨4, _⟩ => ⟨S11008, .f32⟩
  | .hbm, ⟨5, _⟩ => ⟨S11008x32x128, .f32⟩
  | .hbm, ⟨6, _⟩ => ⟨S11008x4096, .f32⟩
  | .hbm, ⟨7, _⟩ => ⟨S11008x32x128, .f32⟩
  | .hbm, ⟨8, _⟩ => ⟨S11008x4096, .f32⟩
  | .hbm, ⟨9, _⟩ => ⟨S11008x4096, .f32⟩
  | .hbm, ⟨10, _⟩ => ⟨S11008x4096, .f32⟩
  | .hbm, ⟨11, _⟩ => ⟨S11008x4096, .f32⟩
  | .hbm, ⟨12, _⟩ => ⟨S4096x11008, .f32⟩
  | .hbm, ⟨13, _⟩ => ⟨S1x11008, .f32⟩
  | .hbm, ⟨14, _⟩ => ⟨S4096x11008, .f32⟩
  | .hbm, ⟨15, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008x32_S11008x32x128_0_1 : S11008x32.BroadcastsInDim S11008x32x128 (![0, 1] : Fin 2 → Fin S11008x32x128.rank)
  shapeCasts_S11008x32x128_S11008x4096 : S11008x32x128.ShapeCasts S11008x4096
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«127417_j53687091200599_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibLastAxis.lean ====
/-
  Reshapes that split or merge the LAST axis, and a value per (row, group) repeated along a new last axis, read at an index.

  An `a × n` array with `n = b·c` re-read as an `a × b × c` array keeps the row-major position of every entry: entry
  `(i, j, l)` of the rank-three array is entry `(i, j·c + l)` of the rank-two one, and the other way round. An `a × b`
  array set up as `a × b × 1` and repeated along `c` lanes holds, at `(i, j, l)`, the value at `(i, j)`.
-/
import Idealize.ShloMosaic.Lib.ValueIdx
import Idealize.ShloMosaic.Lib.Pipeline.Value

noncomputable section

namespace Cert.Lib.LastAxis

open Idealize.ShloMosaic Idealize.ShloMosaic.ValueIdx

variable {α : Type}

/-- Splitting the last axis: entry `(i, j, l)` of the result is the operand at row `i`, column `k = j·c + l`. -/
theorem splitLast_apply {a b c n : ℕ} (x : (⟨2, ![a, n]⟩ : Shape).Idx → α)
    (h : (⟨2, ![a, n]⟩ : Shape).ShapeCasts ⟨3, ![a, b, c]⟩) (hn : n = b * c) (i : Fin a) (j : Fin b) (l : Fin c) (k : Fin n)
    (hk : k.val = j.val * c + l.val) :
    shapeCast ⟨3, ![a, b, c]⟩ x h (ix3 i j l) = x (ix2 i k) :=
  shapeCast_apply x h _ _ (by
    rw [Shape.rowMajor_val_three, Shape.rowMajor_val_two]
    show i.val * n + k.val = (i.val * b + j.val) * c + l.val
    rw [hk, hn]; ring)

/-- Merging the last two axes: row `i`, column `k = j·c + l` of the result is the operand at `(i, j, l)`. -/
theorem mergeLast_apply {a b c n : ℕ} (x : (⟨3, ![a, b, c]⟩ : Shape).Idx → α)
    (h : (⟨3, ![a, b, c]⟩ : Shape).ShapeCasts ⟨2, ![a, n]⟩) (hn : n = b * c) (i : Fin a) (j : Fin b) (l : Fin c) (k : Fin n)
    (hk : k.val = j.val * c + l.val) :
    shapeCast ⟨2, ![a, n]⟩ x h (ix2 i k) = x (ix3 i j l) :=
  shapeCast_apply x h _ _ (by
    rw [Shape.rowMajor_val_three, Shape.rowMajor_val_two]
    show (i.val * b + j.val) * c + l.val = i.val * n + k.val
    rw [hk, hn]; ring)

/-- An `a × b` array of per-group values, given a unit last axis and repeated along `c` lanes: at `(i, j, l)`, the value
    of group `j` of row `i`. -/
theorem groupSpread_apply {a b c : ℕ} (v : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ v hc) hb (ix3 i j l) = v (ix2 i j) := by
  refine (broadcastTo_apply _ hb (ix3 i j l) (ix3 i j (0 : Fin 1)) (fun ax => ?_)).trans ?_
  · match ax with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => exact (if_pos rfl).symm
  · refine shapeCast_apply v hc (ix3 i j (0 : Fin 1)) (ix2 i j) ?_
    rw [Shape.rowMajor_val_two, Shape.rowMajor_val_three]
    show i.val * b + j.val = (i.val * b + j.val) * 1 + 0
    omega

end Cert.Lib.LastAxis

end
-- ==== Proof.Spec.lean ====
/-
  A linear layer whose weight is stored as small integers with one scale and one zero point per group of 128 input
  features.

  For `M` rows of 4096 input features `x`, an `N × 4096` table of integer codes `w`, `N × 32` tables of zero points `z`
  and scales `s` (feature `k` belongs to group `k / 128`) and `N` biases `b`, the dequantised weight is

      W (q, k) = (w (q, k) − z (q, k / 128)) · s (q, k / 128)

  and the layer's output is  y (p, q) = ∑ k, x (p, k) · W (q, k) + b q,  over the extended reals.
-/
import Idealize.ShloMosaic.Lib.ValueIdx
import Idealize.ShloMosaic.PureOps.Ideal

noncomputable section

open scoped BigOperators

namespace Cert.GroupQuant

open Idealize.ShloMosaic Idealize.ShloMosaic.ValueIdx

/-- The group of input feature `k`: the groups are the 32 runs of 128 consecutive features. -/
def grp (k : Fin 4096) : Fin 32 := ⟨k.val / 128, by have := k.isLt; omega⟩

/-- The dequantised weight of output `q` at input feature `k`: the integer code minus its group's zero point, times its
    group's scale. -/
def deq {N : ℕ} (w : IVec ⟨2, ![N, 4096]⟩ 32) (z s : FVec Ideal ⟨2, ![N, 32]⟩ .f32) (q : Fin N) (k : Fin 4096) : EReal :=
  (FloatOps.sitofp (F := Ideal) .f32 (w (ix2 q k)) - z (ix2 q (grp k))) * s (ix2 q (grp k))

/-- The layer's output at row `p`, output `q`, the bias given as a function of the output. -/
def out {M N : ℕ} (x : FVec Ideal ⟨2, ![M, 4096]⟩ .f32) (w : IVec ⟨2, ![N, 4096]⟩ 32) (z s : FVec Ideal ⟨2, ![N, 32]⟩ .f32)
    (b : Fin N → EReal) (p : Fin M) (q : Fin N) : EReal :=
  (∑ k : Fin 4096, x (ix2 p k) * deq w z s q k) + b q

/-- The output at `(p, q)` depends only on row `p` of the inputs, on row `q` of the codes, zero points and scales, and on
    the bias of output `q`: two settings that agree on these have the same output there. -/
theorem out_congr {M N M' N' : ℕ} {x : FVec Ideal ⟨2, ![M, 4096]⟩ .f32} {w : IVec ⟨2, ![N, 4096]⟩ 32}
    {z s : FVec Ideal ⟨2, ![N, 32]⟩ .f32} {b : Fin N → EReal} {x' : FVec Ideal ⟨2, ![M', 4096]⟩ .f32}
    {w' : IVec ⟨2, ![N', 4096]⟩ 32} {z' s' : FVec Ideal ⟨2, ![N', 32]⟩ .f32} {b' : Fin N' → EReal}
    {p : Fin M} {q : Fin N} {p' : Fin M'} {q' : Fin N'}
    (hx : ∀ k, x (ix2 p k) = x' (ix2 p' k)) (hw : ∀ k, w (ix2 q k) = w' (ix2 q' k))
    (hz : ∀ g, z (ix2 q g) = z' (ix2 q' g)) (hs : ∀ g, s (ix2 q g) = s' (ix2 q' g)) (hb : b q = b' q') :
    out x w z s b p q = out x' w' z' s' b' p' q' := by
  unfold out deq
  simp only [hx, hw, hz, hs, hb]

/-- The whole output array, the bias a rank-one array. -/
def lin {M N : ℕ} (x : FVec Ideal ⟨2, ![M, 4096]⟩ .f32) (w : IVec ⟨2, ![N, 4096]⟩ 32) (z s : FVec Ideal ⟨2, ![N, 32]⟩ .f32)
    (b : FVec Ideal ⟨1, ![N]⟩ .f32) : FVec Ideal ⟨2, ![M, N]⟩ .f32 :=
  fun i => out x w z s (fun q => b (ix1 q)) (i 0) (i 1)

end Cert.GroupQuant

end
-- ==== Proof.Payload.lean ====
/-
  What the kernel body stores, entry by entry.

  The body holds 256 input rows `x` (256 × 4096), 256 rows of integer codes `w` (256 × 4096), their zero points `z` and
  scales `s` (256 × 32 each) and a 1 × 256 row of biases `b`. It re-reads the codes as a 256 × 32 × 128 array (group by
  group), subtracts each group's zero point and multiplies by its scale (both repeated along the 128 lanes of the group),
  merges the last two axes back, and contracts the input rows with the dequantised rows over the 4096 features into a zero
  accumulator; then it adds the bias row, repeated down the rows. At entry `(p, q)` this is
  `∑ k, x (p, k) · ((w (q, k) − z (q, k / 128)) · s (q, k / 128)) + b (0, q)`: feature `k = (k / 128) · 128 + k % 128`
  is lane `k % 128` of group `k / 128`.
-/
import proofs.«127417_j53687091200599_2_alg».proof.Proof.Gen.KernelIdeal.Skeleton
import proofs.«127417_j53687091200599_2_alg».proof.Proof.LibBlockOps
import proofs.«127417_j53687091200599_2_alg».proof.Proof.LibLastAxis
import proofs.«127417_j53687091200599_2_alg».proof.Proof.Spec

noncomputable section

open scoped BigOperators

namespace Cert.GroupQuant.Body

open Cert.KernelIdeal Cert.KernelIdeal.Gen Idealize.ShloMosaic Idealize.ShloMosaic.ValueIdx

/-- The lane of feature `k` inside its group. -/
def lane (k : Fin 4096) : Fin 128 := ⟨k.val % 128, Nat.mod_lt _ (by decide)⟩

theorem grp_lane (k : Fin 4096) : k.val = (grp k).val * 128 + (lane k).val := by
  show k.val = k.val / 128 * 128 + k.val % 128
  omega

/-- The dequantised block of weights, row `q`, feature `k`. -/
theorem deq_apply (v0 : Vec Ideal S256x4096 .i32) (v3 v5 : Vec Ideal S256x32 .f32) (q : Fin 256) (k : Fin 4096) :
    shapeCast S256x4096
        (mulf (subf (shapeCast S256x32x128 (sitofp (F := Ideal) .f32 v0) Facts₀.shapeCasts_S256x4096_S256x32x128)
            (broadcastTo S256x32x128 (shapeCast S256x32x1 v3 Facts₀.shapeCasts_S256x32_S256x32x1) Facts₀.broadcasts_S256x32x1_S256x32x128))
          (broadcastTo S256x32x128 (shapeCast S256x32x1 v5 Facts₀.shapeCasts_S256x32_S256x32x1) Facts₀.broadcasts_S256x32x1_S256x32x128))
        Facts₀.shapeCasts_S256x32x128_S256x4096 (ix2 q k)
      = deq v0 v3 v5 q k := by
  rw [Cert.Lib.LastAxis.mergeLast_apply _ _ (by norm_num) q (grp k) (lane k) k (grp_lane k), mulf_apply, subf_apply,
    Cert.Lib.LastAxis.splitLast_apply _ _ (by norm_num) q (grp k) (lane k) k (grp_lane k),
    Cert.Lib.LastAxis.groupSpread_apply, Cert.Lib.LastAxis.groupSpread_apply]
  rfl

/-- The stored block at entry `(p, q)`. -/
theorem pay_apply (v0 : Vec Ideal S256x4096 .i32) (v3 v5 : Vec Ideal S256x32 .f32) (v13 : Vec Ideal S256x4096 .f32)
    (v16 : Vec Ideal S1x256 .f32) (p q : Fin 256) :
    k0_pay1 (F := Ideal) v0 v3 v5 v13 v16 (ix2 p q) = out v13 v0 v3 v5 (fun q => v16 (ix2 (0 : Fin 1) q)) p q := by
  unfold k0_pay1
  refine (Cert.Lib.BlockOps.linRows_apply Facts₀.dot_S256x4096_S256x4096_S256x256_1_1_0_0_n_n_wf none _ _ v16
    Facts₀.shapeCasts_S1x256_S1x256 Facts₀.broadcasts_S1x256_S256x256 p q).trans ?_
  refine congrArg (· + v16 (ix2 (0 : Fin 1) q)) (Finset.sum_congr rfl fun k _ => ?_)
  rw [truncf_apply, truncf_apply, deq_apply]

end Cert.GroupQuant.Body

end
-- ==== Proof.Blocks.lean ====
/-
  From the blocks to the whole output array.

  The grid has 16 × 43 points; point `t` is row tile `t / 43` and column tile `t % 43`. There the body sees rows
  `256 · (t / 43) …` of the input, and rows `256 · (t % 43) …` of the codes, zero points and scales, and columns
  `256 · (t % 43) …` of the bias row (the bias re-read as a 1 × 11008 array before the launch), and what it writes back is
  the 256 × 256 tile of the output at that row and column tile. An output entry depends only on its row of the input and
  on its column's row of the weight tables and bias, so every tile written back is the tile of ONE array, the layer's
  output, and the 688 tiles cover the array: entry `(r, s)` lies in the tile of point `(r / 256) · 43 + s / 256`.
-/
import proofs.«127417_j53687091200599_2_alg».proof.Proof.Gen.KernelIdeal.Value
import proofs.«127417_j53687091200599_2_alg».proof.Proof.Payload
import Idealize.ShloMosaic.Lib.Pipeline.Value
import Idealize.ShloMosaic.Lib.ValueLayout
import Idealize.ShloMosaic.Lib.StableHlo.Run

noncomputable section

open scoped BigOperators

namespace Cert.GroupQuant.Blocks

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The tile each window is at, at point `t`: the input follows the row tile `t / 43`; the codes, zero points, scales
    and bias follow the column tile `t % 43`; the output has both. Decided over the 688 points. -/
theorem tile_facts : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = t.val % 43 ∧ win0_3.index t (1 : Fin 2) = 0
    ∧ win0_4.index t (0 : Fin 2) = 0 ∧ win0_4.index t (1 : Fin 2) = t.val % 43
    ∧ win0_5.index t (0 : Fin 2) = t.val / 43 ∧ win0_5.index t (1 : Fin 2) = t.val % 43 :=
  (by decide +kernel : ∀ t : Fin grid0.N, _)

/-- The layer's output of the argument arrays (scales are the third argument, zero points the fourth). -/
abbrev result (c : Dev nD) : S4096x11008.Idx → EReal :=
  lin (m ((c : Thread nD τ).loc main_arg0) : S4096x4096.Idx → EReal) (m ((c : Thread nD τ).loc main_arg1) : S11008x4096.Idx → BitVec 32)
    (m ((c : Thread nD τ).loc main_arg3) : S11008x32.Idx → EReal) (m ((c : Thread nD τ).loc main_arg2) : S11008x32.Idx → EReal)
    (m ((c : Thread nD τ).loc main_arg4) : S11008.Idx → EReal)

/-- The input block at point `t`: row `p` of the block is row `256 · (t / 43) + p` of the input. -/
theorem x_blk (c : Dev nD) (t : Fin cfg0.N) (p : Fin 256) (k : Fin 4096) (r : Fin 4096) (hr : r.val = t.val / 43 * 256 + p.val) :
    (iblk m c 0 t : Vec Ideal S256x4096 .f32) (ix2 p k) = (m ((c : Thread nD τ).loc main_arg0) : S4096x4096.Idx → EReal) (ix2 r k) := by
  obtain ⟨e0, e1, -⟩ := tile_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = r.val; rw [e0, hr]; omega
  | ⟨1, _⟩ => show win0_0.index t (1 : Fin 2) * 4096 + 1 * k.val = k.val; rw [e1]; omega

/-- The block of codes at point `t`: row `q` of the block is row `256 · (t % 43) + q` of the table. -/
theorem w_blk (c : Dev nD) (t : Fin cfg0.N) (q : Fin 256) (k : Fin 4096) (s : Fin 11008) (hs : s.val = t.val % 43 * 256 + q.val) :
    (iblk m c 1 t : Vec Ideal S256x4096 .i32) (ix2 q k) = (m ((c : Thread nD τ).loc main_arg1) : S11008x4096.Idx → BitVec 32) (ix2 s k) := by
  obtain ⟨-, -, e0, e1, -⟩ := tile_facts t
  unfold iblk
  rw [View.read_apply]
  show V m c main_arg1 _ = _
  rw [V_main_arg1]
  congr 1
  funext a
  apply Fin.ext
  match a with
  | ⟨0, _⟩ => show win0_1.index t (0 : Fin 2) * 256 + 1 * q.val = s.val; rw [e0, hs]; omega
  | ⟨1, _⟩ => show win0_1.index t (1 : Fin 2) * 4096 + 1 * k.val = k.val; rw [e1]; omega

/-- The block of scales at point `t`. -/
theorem s_blk (c : Dev nD) (t : Fin cfg0.N) (q : Fin 256) (g : Fin 32) (s : Fin 11008) (hs : s.val = t.val % 43 * 256 + q.val) :
    (iblk m c 2 t : Vec Ideal S256x32 .f32) (ix2 q g) = (m ((c : Thread nD τ).loc main_arg2) : S11008x32.Idx → EReal) (ix2 s g) := by
  obtain ⟨-, -, -, -, e0, e1, -⟩ := tile_facts t
  unfold iblk
  rw [View.read_apply]
  show V m c main_arg2 _ = _
  rw [V_main_arg2]
  congr 1
  funext a
  apply Fin.ext
  match a with
  | ⟨0, _⟩ => show win0_2.index t (0 : Fin 2) * 256 + 1 * q.val = s.val; rw [e0, hs]; omega
  | ⟨1, _⟩ => show win0_2.index t (1 : Fin 2) * 32 + 1 * g.val = g.val; rw [e1]; omega

/-- The block of zero points at point `t`. -/
theorem z_blk (c : Dev nD) (t : Fin cfg0.N) (q : Fin 256) (g : Fin 32) (s : Fin 11008) (hs : s.val = t.val % 43 * 256 + q.val) :
    (iblk m c 3 t : Vec Ideal S256x32 .f32) (ix2 q g) = (m ((c : Thread nD τ).loc main_arg3) : S11008x32.Idx → EReal) (ix2 s g) := by
  obtain ⟨-, -, -, -, -, -, e0, e1, -⟩ := tile_facts t
  unfold iblk
  rw [View.read_apply]
  show V m c main_arg3 _ = _
  rw [V_main_arg3]
  congr 1
  funext a
  apply Fin.ext
  match a with
  | ⟨0, _⟩ => show win0_3.index t (0 : Fin 2) * 256 + 1 * q.val = s.val; rw [e0, hs]; omega
  | ⟨1, _⟩ => show win0_3.index t (1 : Fin 2) * 32 + 1 * g.val = g.val; rw [e1]; omega

/-- Before the launch the bias is re-read as a one-row array. -/
theorem bias_row (c : Dev nD) :
    (V m c main_v0 : S1x11008.Idx → EReal)
      = shapeCast S1x11008 (m ((c : Thread nD τ).loc main_arg4) : S11008.Idx → EReal) Facts₀.shapeCasts_S11008_S1x11008 := by
  dsimp only [Gen.V, Gen.hostOps0]
  after_results
  rfl

/-- The block of the bias row at point `t`: column `q` of the block is the bias of output `256 · (t % 43) + q`. -/
theorem b_blk (c : Dev nD) (t : Fin cfg0.N) (q : Fin 256) (s : Fin 11008) (hs : s.val = t.val % 43 * 256 + q.val) :
    (iblk m c 4 t : Vec Ideal S1x256 .f32) (ix2 (0 : Fin 1) q) = (m ((c : Thread nD τ).loc main_arg4) : S11008.Idx → EReal) (ix1 s) := by
  obtain ⟨-, -, -, -, -, -, -, -, e0, e1, -⟩ := tile_facts t
  unfold iblk
  rw [View.read_apply]
  show (V m c main_v0 : S1x11008.Idx → EReal) _ = _
  rw [bias_row]
  refine Eq.trans (congrArg _ ?_) (shapeCast_a_1a_apply _ _ (0 : Fin 1) s)
  funext a
  apply Fin.ext
  match a with
  | ⟨0, _⟩ => show win0_4.index t (0 : Fin 2) * 1 + 1 * 0 = 0; rw [e0]
  | ⟨1, _⟩ => show win0_4.index t (1 : Fin 2) * 256 + 1 * q.val = s.val; rw [e1, hs]; omega

/-- What point `t` writes back is its tile of the layer's output. -/
theorem flushed_eq (c : Dev nD) (t : Fin cfg0.N) :
    (dats m 0 c).flushed 5 t = ((cfg0.win 5).blk t).view.read (Elt Ideal) (result m c) := by
  have ht : t.val < 688 := lt_of_lt_of_eq t.isLt N_0
  obtain ⟨-, -, -, -, -, -, -, -, -, -, e0, e1⟩ := tile_facts t
  rw [flushed5]
  unfold out0_5
  rw [View.canon_unit_zero zero_off]
  simp only [View.ld_unit_zero (S := S256x4096) zero_off, View.ld_unit_zero (S := S256x32) zero_off,
    View.ld_unit_zero (S := S1x256) zero_off]
  funext y
  obtain ⟨p, q, rfl⟩ : ∃ (p q : Fin 256), (y : S256x256.Idx) = ix2 p q := ⟨y 0, y 1, eq_ix2 (n0 := 256) (n1 := 256) y⟩
  rw [View.read_apply]
  have hemb : ((cfg0.win 5).blk t).view.emb (ix2 p q)
      = (ix2 (⟨t.val / 43 * 256 + p.val, by omega⟩ : Fin 4096) (⟨t.val % 43 * 256 + q.val, by omega⟩ : Fin 11008) : S4096x11008.Idx) := by
    funext a
    apply Fin.ext
    match a with
    | ⟨0, _⟩ => show win0_5.index t (0 : Fin 2) * 256 + 1 * p.val = t.val / 43 * 256 + p.val; rw [e0]; omega
    | ⟨1, _⟩ => show win0_5.index t (1 : Fin 2) * 256 + 1 * q.val = t.val % 43 * 256 + q.val; rw [e1]; omega
  show k0_pay1 (F := Ideal) (iblk m c 1 t) (iblk m c 3 t) (iblk m c 2 t) (iblk m c 0 t) (iblk m c 4 t) (ix2 p q)
    = result m c (((cfg0.win 5).blk t).view.emb (ix2 p q))
  rw [hemb]
  refine (Body.pay_apply (iblk m c 1 t) (iblk m c 3 t) (iblk m c 2 t) (iblk m c 0 t) (iblk m c 4 t) p q).trans ?_
  exact out_congr (fun k => x_blk m c t p k _ rfl) (fun k => w_blk m c t q k _ rfl) (fun g => z_blk m c t q g _ rfl)
    (fun g => s_blk m c t q g _ rfl) (b_blk m c t q _ rfl)

/-- Every entry of the output lies in some point's tile. -/
theorem cover (i : S4096x11008.Idx) :
    ∃ t : Fin cfg0.N, (cfg0.win 5).flush t = true ∧ i ∈ ((cfg0.win 5).blk t).view.set := by
  have h0 : (i 0).val < 4096 := (i 0).isLt
  have h1 : (i 1).val < 11008 := (i 1).isLt
  have hN : cfg0.N = 688 := N_0
  obtain ⟨t, htv⟩ : ∃ t : Fin cfg0.N, t.val = (i 0).val / 256 * 43 + (i 1).val / 256 :=
    ⟨⟨(i 0).val / 256 * 43 + (i 1).val / 256, by rw [hN]; omega⟩, rfl⟩
  obtain ⟨-, -, -, -, -, -, -, -, -, -, e0, e1⟩ := tile_facts t
  refine ⟨t, flush0_5 t, ?_⟩
  show i ∈ ((View.whole main_v1).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0, htv]
    omega
  | ⟨1, _⟩ =>
    show win0_5.index t (1 : Fin 2) * 256 ≤ (i 1).val ∧ (i 1).val < win0_5.index t (1 : Fin 2) * 256 + 256
    rw [e1, htv]
    omega

/-- After the run the output array is the layer's output of the argument arrays. -/
theorem final (c : Dev nD) : (dats m 0 c).arrAt 5 cfg0.N = result m c :=
  (dats m 0 c).arrAt_eq_of_cover 5 (result m c) (fun t _ => flushed_eq m c t) cover

/-- The kernel's run: the output array at the layer's output, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.GroupQuant.Blocks

end
-- ==== Proof.RefSide.lean ====
/-
  The reference computes the grouped-quantisation linear layer.

  The reference spreads each group's scale and zero point over the group's 128 features (a repeat along a new last axis
  followed by a merge of the last two axes), dequantises the whole weight table, contracts the input rows with the weight
  rows over the 4096 features and adds the bias. Read at an entry `(p, q)`, the spread tables at feature `k` are the
  group tables at `k / 128`, so the result is `∑ k, x (p, k) · W (q, k) + b q` with `W` the dequantised weight.
-/
import proofs.«127417_j53687091200599_2_alg».proof.Proof.Gen.ReferenceIdeal.Read
import proofs.«127417_j53687091200599_2_alg».proof.Proof.Spec

noncomputable section

open scoped BigOperators

namespace Cert.GroupQuant.Ref

open Cert.ReferenceIdeal Cert.ReferenceIdeal.Read Idealize.ShloMosaic Idealize.ShloMosaic.ValueIdx

/-- Feature `k` of output row `q` of a spread table is the group table at `(q, k / 128)`: the spread table's entry sits at
    row-major position `q · 4096 + k` of the `11008 × 32 × 128` array, whose middle coordinate is `k / 128`. -/
theorem spread_idx (q : Fin 11008) (k : Fin 4096) :
    idx_main_v0 (idx_main_v1 (ix2 q k)) = ix2 q (grp k) := by
  funext a
  apply Fin.ext
  have hq := q.isLt
  have hk := k.isLt
  match a with
  | ⟨0, _⟩ => show (q.val * 4096 + k.val) / 4096 = q.val; omega
  | ⟨1, _⟩ => show (q.val * 4096 + k.val) / 128 % 32 = k.val / 128; omega

/-- The reference's result is the layer's output: scales are the third argument, zero points the fourth. -/
theorem result_eq (x0 : (⟨S4096x4096, .f32⟩ : BufTy).Contents (Elt Ideal)) (x1 : (⟨S11008x4096, .i32⟩ : BufTy).Contents (Elt Ideal))
    (x2 x3 : (⟨S11008x32, .f32⟩ : BufTy).Contents (Elt Ideal)) (x4 : (⟨S11008, .f32⟩ : BufTy).Contents (Elt Ideal)) :
    val_main_v10 (F := Ideal) x0 x1 x2 x3 x4 = lin x0 x1 x3 x2 x4 := by
  funext i
  obtain ⟨p, q, rfl⟩ : ∃ (p : Fin 4096) (q : Fin 11008), i = ix2 p q := ⟨i 0, i 1, eq_ix2 i⟩
  have el : ∀ k, lidx_main_v7 (ix2 p q) k = ix2 p k := fun k => funext fun a => Fin.ext (by
    match a with
    | ⟨0, _⟩ => rfl
    | ⟨1, _⟩ => rfl)
  have er : ∀ k, ridx_main_v7 (ix2 p q) k = ix2 q k := fun k => funext fun a => Fin.ext (by
    match a with
    | ⟨0, _⟩ => rfl
    | ⟨1, _⟩ => rfl)
  have eb : idx_main_v8 (idx_main_v9 (ix2 p q)) = ix1 q := funext fun a => Fin.ext (by
    match a with
    | ⟨0, _⟩ => rfl)
  rw [val_main_v10_apply, val_main_v7_apply, val_main_v9_apply, val_main_v8_apply, eb]
  show (∑ k : Fin 4096, _) + x4 (ix1 q) = (∑ k : Fin 4096, x0 (ix2 p k) * deq x1 x3 x2 q k) + x4 (ix1 q)
  refine congrArg (· + x4 (ix1 q)) (Finset.sum_congr rfl fun k _ => ?_)
  rw [el, er, val_main_v6_apply, val_main_v5_apply, val_main_v4_apply, val_main_v3_apply, val_main_v2_apply,
    val_main_v1_apply, val_main_v0_apply]
  show x0 (ix2 p k) * ((FloatOps.sitofp (F := Ideal) .f32 (x1 (ix2 q k)) - x3 (idx_main_v0 (idx_main_v1 (ix2 q k))))
      * x2 (idx_main_v0 (idx_main_v1 (ix2 q k)))) = _
  rw [spread_idx]
  rfl

end Cert.GroupQuant.Ref

end
-- ==== Proof.lean ====
/-
  A linear layer with a group-quantised weight: the kernel against its reference, over the extended reals.

  Both programs compute, for 4096 rows `x` of 4096 input features, an 11008 × 4096 table of integer codes `w`,
  11008 × 32 tables of scales `s` and zero points `z` (one per output and group of 128 features) and 11008 biases `b`,

      y (p, q) = ∑ k, x (p, k) · ((w (q, k) − z (q, k / 128)) · s (q, k / 128)) + b q.

  The kernel does it tile by tile (256 rows by 256 outputs per grid point, the whole contraction in one product into a
  zero accumulator, the factors narrowed to a shorter format first, which is the identity on extended reals); the
  reference spreads the group tables over the features, dequantises the whole table and contracts once. The sums are
  over the same index set in the same order and the summands are the same terms, so no law of the extended reals beyond
  rewriting each side to this formula is used, and the finiteness precondition is never opened.

  `Spec` states the formula; `Payload` reads the body's stored tile at an entry; `Blocks` assembles the tiles into the
  array; `RefSide` reads the reference's result at an entry. The frames are the generated ones (the reference's is its
  generated run with the result dropped), and the idealisation rewrote nothing, so `preserves` is trivial.
-/
import proofs.«127417_j53687091200599_2_alg».proof.Defs
import proofs.«127417_j53687091200599_2_alg».proof.Proof.Gen.Kernel
import proofs.«127417_j53687091200599_2_alg».proof.Proof.Gen.Kernel.Skeleton
import proofs.«127417_j53687091200599_2_alg».proof.Proof.Gen.Kernel.Launch
import proofs.«127417_j53687091200599_2_alg».proof.Proof.Gen.Kernel.Points
import proofs.«127417_j53687091200599_2_alg».proof.Proof.Gen.Kernel.Frame
import proofs.«127417_j53687091200599_2_alg».proof.Proof.Gen.KernelIdeal
import proofs.«127417_j53687091200599_2_alg».proof.Proof.Gen.KernelIdeal.Skeleton
import proofs.«127417_j53687091200599_2_alg».proof.Proof.Gen.KernelIdeal.Launch
import proofs.«127417_j53687091200599_2_alg».proof.Proof.Gen.KernelIdeal.Points
import proofs.«127417_j53687091200599_2_alg».proof.Proof.Gen.KernelIdeal.Frame
import proofs.«127417_j53687091200599_2_alg».proof.Proof.Gen.ReferenceIdeal
import proofs.«127417_j53687091200599_2_alg».proof.Proof.Gen.Pre_finite_inputs
import proofs.«127417_j53687091200599_2_alg».proof.Proof.Gen.KernelIdeal.Value
import proofs.«127417_j53687091200599_2_alg».proof.Proof.Gen.ReferenceIdeal.Run
import proofs.«127417_j53687091200599_2_alg».proof.Proof.Gen.ReferenceIdeal.Read
import proofs.«127417_j53687091200599_2_alg».proof.Proof.Blocks
import proofs.«127417_j53687091200599_2_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the layer's output of the (agreeing) argument arrays. -/
theorem algebraic : Cert.algebraic_KernelIdeal_ReferenceIdeal := by
  intro m ρ m' ρ' _ hagree
  refine ⟨fun c => Cert.GroupQuant.Blocks.result m c, Cert.GroupQuant.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.GroupQuant.Ref.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
